-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x625000 32) (main_arg2 : FVec F S128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x625000 : Shape := ⟨2, ![2, 625000]⟩
abbrev S128 : Shape := ⟨1, ![128]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1 : Shape := ⟨1, ![1]⟩
abbrev S128x1 : Shape := ⟨2, ![128, 1]⟩
abbrev S1x128 : Shape := ⟨2, ![1, 128]⟩
abbrev S5000x128 : Shape := ⟨2, ![5000, 128]⟩

abbrev nBuf : Space → Nat
  | .hbm => 48
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S_, .i32⟩
  | .hbm, ⟨8, _⟩ => ⟨S625000, .i32⟩
  | .hbm, ⟨9, _⟩ => ⟨S625000, .i1⟩
  | .hbm, ⟨10, _⟩ => ⟨S_, .i32⟩
  | .hbm, ⟨11, _⟩ => ⟨S625000, .i32⟩
  | .hbm, ⟨12, _⟩ => ⟨S625000, .i32⟩
  | .hbm, ⟨13, _⟩ => ⟨S625000, .i32⟩
  | .hbm, ⟨14, _⟩ => ⟨S625000x1, .i32⟩
  | .hbm, ⟨15, _⟩ => ⟨S625000x128, .f32⟩
  | .hbm, ⟨16, _⟩ => ⟨S1x625000, .i32⟩
  | .hbm, ⟨17, _⟩ => ⟨S625000, .i32⟩
  | .hbm, ⟨18, _⟩ => ⟨S_, .i32⟩
  | .hbm, ⟨19, _⟩ => ⟨S625000, .i32⟩
  | .hbm, ⟨20, _⟩ => ⟨S625000, .i1⟩
  | .hbm, ⟨21, _⟩ => ⟨S_, .i32⟩
  | .hbm, ⟨22, _⟩ => ⟨S625000, .i32⟩
  | .hbm, ⟨23, _⟩ => ⟨S625000, .i32⟩
  | .hbm, ⟨24, _⟩ => ⟨S625000, .i32⟩
  | .hbm, ⟨25, _⟩ => ⟨S625000x1, .i32⟩
  | .hbm, ⟨26, _⟩ => ⟨S625000x128, .f32⟩
  | .hbm, ⟨27, _⟩ => ⟨S625000x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S128, .f32⟩
  | .hbm, ⟨40, _⟩ => ⟨S128, .f32⟩
  | .hbm, ⟨41, _⟩ => ⟨S128x1, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .bf16⟩
  | .hbm, ⟨46, _⟩ => ⟨S1x128, .f32⟩
  | .hbm, ⟨47, _⟩ => ⟨S625000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  bcast_S625000_S625000x1_0 : S625000.BroadcastsInDim S625000x1 (![0] : Fin 1 → Fin S625000x1.rank)
  slices_S2x625000_S1x625000_1_0 : S2x625000.Slices ![1, 0] S1x625000
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  bcast_S128_S128x1_0 : S128.BroadcastsInDim S128x1 (![0] : Fin 1 → Fin S128x1.rank)
  transposes_S128x128_S128x128_1_0 : S128x128.Transposes [1, 0] S128x128
  bcast_S128x1_S128x128_0_1 : S128x1.BroadcastsInDim S128x128 (![0, 1] : Fin 2 → Fin S128x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S625000x128.size a
  hwx0_0 : ∀ i : grid0.Coords, EltTy.bits .f32 = 32 ∨ (Rect.block (s := S625000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S625000x128.size a
  hwx0_3 : ∀ i : grid0.Coords, EltTy.bits .f32 = 32 ∨ (Rect.block (s := S625000x128) S5000x128.size (cc0_transform_3 i) (hinb0_3 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128 : Shape := ⟨1, ![128]⟩
abbrev S128x128 : Shape := ⟨2, ![128, 128]⟩
abbrev S_ : Shape := ⟨0, ![]⟩
abbrev S1 : Shape := ⟨1, ![1]⟩
abbrev S1x625000 : Shape := ⟨2, ![1, 625000]⟩
abbrev S625000 : Shape := ⟨1, ![625000]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S128, .f32⟩
  | .hbm, ⟨17, _⟩ => ⟨S128, .f32⟩
  | .hbm, ⟨18, _⟩ => ⟨S1x625000, .i32⟩
  | .hbm, ⟨19, _⟩ => ⟨S625000, .i32⟩
  | .hbm, ⟨20, _⟩ => ⟨S_, .i32⟩
  | .hbm, ⟨21, _⟩ => ⟨S625000, .i32⟩
  | .hbm, ⟨22, _⟩ => ⟨S625000, .i1⟩
  | .hbm, ⟨23, _⟩ => ⟨S_, .i32⟩
  | .hbm, ⟨24, _⟩ => ⟨S625000, .i32⟩
  | .hbm, ⟨25, _⟩ => ⟨S625000, .i32⟩
  | .hbm, ⟨26, _⟩ => ⟨S625000, .i32⟩
  | .hbm, ⟨27, _⟩ => ⟨S625000x1, .i32⟩
  | .hbm, ⟨28, _⟩ => ⟨S625000x128, .f32⟩
  | .hbm, ⟨29, _⟩ => ⟨S1x625000, .i32⟩
  | .hbm, ⟨30, _⟩ => ⟨S625000, .i32⟩
  | .hbm, ⟨31, _⟩ => ⟨S_, .i32⟩
  | .hbm, ⟨32, _⟩ => ⟨S625000, .i32⟩
  | .hbm, ⟨33, _⟩ => ⟨S625000, .i1⟩
  | .hbm, ⟨34, _⟩ => ⟨S_, .i32⟩
  | .hbm, ⟨35, _⟩ => ⟨S625000, .i32⟩
  | .hbm, ⟨36, _⟩ => ⟨S625000, .i32⟩
  | .hbm, ⟨37, _⟩ => ⟨S625000, .i32⟩
  | .hbm, ⟨38, _⟩ => ⟨S625000x1, .i32⟩
  | .hbm, ⟨39, _⟩ => ⟨S625000x128, .f32⟩
  | .hbm, ⟨40, _⟩ => ⟨S625000x128, .f32⟩
  | .hbm, ⟨41, _⟩ => ⟨S1x128, .f32⟩
  | .hbm, ⟨42, _⟩ => ⟨S625000x128, .f32⟩
  | .hbm, ⟨43, _⟩ => ⟨S625000x128, .f32⟩
  | .hbm, ⟨44, _⟩ => ⟨S625000x128, .f32⟩
  | .hbm, ⟨45, _⟩ => ⟨S1x128, .f32⟩
  | .hbm, ⟨46, _⟩ => ⟨S625000x128, .f32⟩
  | .hbm, ⟨47, _⟩ => ⟨S625000x128, .f32⟩
  | .hbm, ⟨48, _⟩ => ⟨S_, .f32⟩
  | .hbm, ⟨49, _⟩ => ⟨S625000x128, .f32⟩
  | .hbm, ⟨50, _⟩ => ⟨S625000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_cst : Ref sig .tc := ⟨.hbm, 48, rfl⟩
abbrev main_call0_v0 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  reducesTo_S128_S_d0 : S128.ReducesTo [0] S_
  h_S_ : 0 < S_.numel
  bcast_S_S1 : S_.BroadcastsInDim S1 (![] : Fin 0 → Fin S1.rank)
  bcast_S1_S128_0 : S1.BroadcastsInDim S128 (![0] : Fin 1 → Fin S128.rank)
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  bcast_S625000_S625000x1_0 : S625000.BroadcastsInDim S625000x1 (![0] : Fin 1 → Fin S625000x1.rank)
  slices_S2x625000_S1x625000_1_0 : S2x625000.Slices ![1, 0] S1x625000
  bcast_S128_S1x128_1 : S128.BroadcastsInDim S1x128 (![1] : Fin 1 → Fin S1x128.rank)
  bcast_S1x128_S625000x128_0_1 : S1x128.BroadcastsInDim S625000x128 (![0, 1] : Fin 2 → Fin S625000x128.rank)
  bcast_S_S625000x128 : S_.BroadcastsInDim S625000x128 (![] : Fin 0 → Fin S625000x128.rank)
  gather_S100000x128_S625000x1_S625000x128_1_0_n_n_0_1_1128_wf : GatherDims.WF S100000x128 S625000x1 S625000x128 [1] [0] [] [0] [] 1 ![1, 128]
  dot_S625000x128_S128x128_S625000x128_1_1_0_0_n_n_wf : DotDims.WF S625000x128 S128x128 S625000x128 [1] [1] [0] [0] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def dot_S625000x128_S128x128_S625000x128_1_1_0_0_n_n : DotDims S625000x128 S128x128 S625000x128 where
  lhsContracting := [1]
  rhsContracting := [1]
  lhsNonContracting := [0]
  rhsNonContracting := [0]
  lhsBatch := []
  rhsBatch := []
  wf := dot_S625000x128_S128x128_S625000x128_1_1_0_0_n_n_wf

class Facts : Prop extends Facts₀ where

variable [Facts]
-- ==== Proof.TileValue.lean ====
/-
  One row tile of the dense layer, entry by entry.

  The kernel body takes a tile of 5000 rows of the edge features (5000 × 128), the whole weight matrix already
  scaled by the attention vector (128 × 128, entry (k, o) the weight of input feature k for output feature o) and the
  bias as a 1 × 128 row, and stores  max(tile · weights + bias, 0).  Read at row p and column q of the tile this is
      max( (∑ k, tile(p, k) · weights(k, q)) + bias(0, q), 0 ):
  the narrowing of the tile to bf16 is the identity on extended reals, the matrix product into the zero accumulator
  is the plain sum over the one contracted axis, and the broadcast of the bias row reads its column.
-/
import proofs.«178951_j34256659153217_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Dense

open Cert.KernelIdeal Cert.KernelIdeal.Gen

/-- The contraction reads the left operand along its row … -/
theorem lhs_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
/-- … and the right operand down its column. -/
theorem rhs_contr (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The tile's matrix product at (p, q): the sum over the 128 contracted positions of tile(p, k) · weights(k, q). -/
theorem tile_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The bias row repeated down the tile reads, at (p, q), the row's entry in column q. -/
theorem bias_row_apply (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- What the body stores, at row p and column q of the tile. -/
theorem tile_apply (x0 : Vec Ideal S5000x128 .f32) (x1 : Vec Ideal S128x128 .bf16) (x2 : Vec Ideal S1x128 .f32)
    (p : Fin 5000) (q : Fin 128) :
    k0_pay1 (F := Ideal) x0 x1 x2 (ix2 p q)
      = max ((∑ k : Fin 128, x0 (ix2 p k) * x1 (ix2 k q)) + x2 (ix2 0 q)) (Ideal.ofBits .f32 0x00000000#32) := by
  unfold k0_pay1
  simp only [shapeCast_self]
  show max (matmul (F := Ideal) dot_S5000x128_S128x128_S5000x128_1_0_0_1_n_n none (truncf .bf16 x0 bitsLt_bf16_f32) x1
      (constant S5000x128 .f32 0x00000000#32) (ix2 p q)
      + broadcastTo S5000x128 x2 broadcasts_S1x128_S5000x128 (ix2 p q)) (Ideal.ofBits .f32 0x00000000#32) = _
  rw [tile_matmul_apply, bias_row_apply]
  rfl

end Cert.KernelIdeal.Dense

end
-- ==== Proof.Layer.lean ====
/-
  The layer as ONE function of three whole arrays.

  With X the 625000 × 128 array of edge features (row e: the sum of the two gathered node rows of edge e), Wt the
  128 × 128 weight matrix as the kernel receives it (entry (k, o): attention weight of input feature k times the
  linear layer's weight from input k to output o) and B the bias as a 1 × 128 row, the result at edge e and output
  feature o is
      max( (∑ k, X(e, k) · Wt(k, o)) + B(0, o), 0 ).
  A row tile of this function depends only on the same rows of X, which is why the kernel may compute it tile by tile.
-/
import Idealize.ShloMosaic.PureOps.Ideal
import Idealize.ShloMosaic.Lib.ValueIdx

noncomputable section

open Idealize.ShloMosaic Idealize.ShloMosaic.ValueIdx

namespace Cert.EdgeLayer

/-- The result at edge `e` and output feature `o`. -/
def layerAt (X : FVec Ideal ⟨2, ![625000, 128]⟩ .f32) (Wt : FVec Ideal ⟨2, ![128, 128]⟩ .bf16)
    (B : FVec Ideal ⟨2, ![1, 128]⟩ .f32) (e : Fin 625000) (o : Fin 128) : EReal :=
  max ((∑ k : Fin 128, X (ix2 e k) * Wt (ix2 k o)) + B (ix2 0 o)) (Ideal.ofBits .f32 0x00000000#32)

/-- The whole result array. -/
def layer (X : FVec Ideal ⟨2, ![625000, 128]⟩ .f32) (Wt : FVec Ideal ⟨2, ![128, 128]⟩ .bf16)
    (B : FVec Ideal ⟨2, ![1, 128]⟩ .f32) : FVec Ideal ⟨2, ![625000, 128]⟩ .f32 :=
  fun i => layerAt X Wt B (i 0) (i 1)

theorem layer_apply (X : FVec Ideal ⟨2, ![625000, 128]⟩ .f32) (Wt : FVec Ideal ⟨2, ![128, 128]⟩ .bf16)
    (B : FVec Ideal ⟨2, ![1, 128]⟩ .f32) (e : Fin 625000) (o : Fin 128) :
    layer X Wt B (ix2 e o) = layerAt X Wt B e o := rfl

end Cert.EdgeLayer

end
-- ==== Proof.Blocks.lean ====
/-
  From tiles to the whole array.

  Grid point t of the 125 stages rows 5000·t … 5000·t + 4999 of the edge features, the whole weight matrix and the
  whole bias row, and writes back rows 5000·t … 5000·t + 4999 of the result. Entry (p, q) of what it writes is the
  layer's value at edge 5000·t + p and output feature q, so the block written back at t is block t of the layer of
  the three staged arrays; the 125 blocks cover every row (row e lies in block e / 5000), so after the run the result
  array is that layer.
-/
import proofs.«178951_j34256659153217_2_alg».proof.Proof.Gen.KernelIdeal.Value
import proofs.«178951_j34256659153217_2_alg».proof.Proof.TileValue
import proofs.«178951_j34256659153217_2_alg».proof.Proof.Layer
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen Cert.KernelIdeal.Value Cert.EdgeLayer

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature tile and the result tile move down one block per point, the
    weights and the bias stay at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature tile at point t is rows 5000·t … of the staged feature array. -/
theorem features_block (c : Dev nD) (t : Fin cfg0.N) (x : S5000x128.Idx) (k : S625000x128.Idx)
    (hk0 : (k 0).val = 5000 * t.val + (x 0).val) (hk1 : (k 1).val = (x 1).val) :
    (iblk m c 0 t : Vec Ideal S5000x128 .f32) x = (V m c main_v18 : S625000x128.Idx → EReal) k := by
  obtain ⟨e0, e1, -⟩ := index_maps t
  unfold iblk
  rw [View.read_apply]
  show V m c main_v18 _ = V m c main_v18 _
  refine congrArg (V m c main_v18) ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The weight tile at every point is the whole staged weight matrix. -/
theorem weights_block (c : Dev nD) (t : Fin cfg0.N) (x : S128x128.Idx) :
    (iblk m c 1 t : Vec Ideal S128x128 .bf16) x = (V m c main_v33 : S128x128.Idx → EReal) x := by
  obtain ⟨-, -, e0, e1, -⟩ := index_maps t
  unfold iblk
  rw [View.read_apply]
  show V m c main_v33 _ = V m c main_v33 _
  refine congrArg (V m c main_v33) ?_
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The bias tile at every point is the whole staged bias row. -/
theorem bias_block (c : Dev nD) (t : Fin cfg0.N) (x : S1x128.Idx) :
    (iblk m c 2 t : Vec Ideal S1x128 .f32) x = (V m c main_v34 : S1x128.Idx → EReal) x := by
  obtain ⟨-, -, -, -, e0, e1, -⟩ := index_maps t
  unfold iblk
  rw [View.read_apply]
  show V m c main_v34 _ = V m c main_v34 _
  refine congrArg (V m c main_v34) ?_
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- The layer of the three arrays as the region finds them. -/
abbrev staged (c : Dev nD) : FVec Ideal S625000x128 .f32 :=
  layer (V m c main_v18) (V m c main_v33) (V m c main_v34)

/-- A tile whose rows are rows of X, staged beside the whole weights and bias, stores the layer's values on those rows. -/
theorem layer_of_tile (x0 : Vec Ideal S5000x128 .f32) (x1 : Vec Ideal S128x128 .bf16) (x2 : Vec Ideal S1x128 .f32)
    (X : FVec Ideal S625000x128 .f32) (Wt : FVec Ideal S128x128 .bf16) (B : FVec Ideal S1x128 .f32)
    (p : Fin 5000) (q : Fin 128) (e : Fin 625000)
    (h0 : ∀ k : Fin 128, x0 (ix2 p k) = X (ix2 e k)) (h1 : ∀ k : Fin 128, x1 (ix2 k q) = Wt (ix2 k q))
    (h2 : x2 (ix2 0 q) = B (ix2 0 q)) :
    k0_pay1 (F := Ideal) x0 x1 x2 (ix2 p q) = layerAt X Wt B e q := by
  rw [tile_apply, h2]
  unfold layerAt
  rw [Finset.sum_congr rfl (fun k _ => by rw [h0 k, h1 k])]

/-- Entry (p, q) of what point t stores is the layer at edge 5000·t + p, output feature q. -/
theorem stored_entry (c : Dev nD) (t : Fin cfg0.N) (p : Fin 5000) (q : Fin 128) (i : S625000x128.Idx)
    (hi0 : (i 0).val = 5000 * t.val + p.val) (hi1 : (i 1).val = q.val) :
    k0_pay1 (F := Ideal) (iblk m c 0 t) (iblk m c 1 t) (iblk m c 2 t) (ix2 p q) = staged m c i := by
  obtain ⟨e, o, rfl⟩ : ∃ (e : Fin 625000) (o : Fin 128), i = ix2 e o := ⟨i 0, i 1, eq_ix2 i⟩
  have ho : o = q := Fin.ext hi1
  subst ho
  show _ = layerAt (V m c main_v18) (V m c main_v33) (V m c main_v34) e o
  exact layer_of_tile (iblk m c 0 t) (iblk m c 1 t) (iblk m c 2 t) (V m c main_v18) (V m c main_v33) (V m c main_v34) p o e
    (fun k => features_block m c t (ix2 p k) (ix2 e k) hi0 rfl) (fun k => weights_block m c t (ix2 k o))
    (bias_block m c t (ix2 0 o))

/-- An index of the result array is in point t's block iff each coordinate is in the block's range on its axis. -/
theorem mem_block (t : Fin cfg0.N) (i : S625000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v35).slice (win0_3.rect t)).set ↔ _
  rw [View.set_slice_whole, Rect.mem_set_unit]
  exact Iff.rfl

/-- What point t writes back is block t of the layer of the staged arrays. -/
theorem written_back (c : Dev nD) (t : Fin cfg0.N) :
    (dats m 0 c).flushed 3 t = ((cfg0.win 3).blk t).view.read (Elt Ideal) (staged m c) := by
  rw [flushed3]
  unfold out0_3
  rw [View.canon_unit_zero hz]
  simp only [View.ld_unit_zero (S := S5000x128) hz, View.ld_unit_zero (S := S128x128) hz, View.ld_unit_zero (S := S1x128) hz]
  obtain ⟨-, -, -, -, -, -, e0, e1⟩ := index_maps t
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (ix2 p q) = staged m c (((cfg0.win 3).blk t).view.emb (ix2 p q))
  refine stored_entry m c t p q _ ?_ ?_
  · show win0_3.index t (0 : Fin 2) * 5000 + 1 * p.val = 5000 * t.val + p.val; rw [e0]; omega
  · show win0_3.index t (1 : Fin 2) * 128 + 1 * q.val = q.val; rw [e1]; omega

/-- Every index of the result array lies in some point's block: row e in the block of point e / 5000. -/
theorem covered (i : S625000x128.Idx) :
    ∃ t : Fin cfg0.N, (cfg0.win 3).flush t = true ∧ i ∈ ((cfg0.win 3).blk t).view.set := by
  have hN : cfg0.N = 125 := N_0
  have h0 : (i 0).val < 625000 := idx2_lt0 i
  have h1 : (i 1).val < 128 := idx2_lt1 i
  have hlt : (i 0).val / 5000 < cfg0.N := by rw [hN]; omega
  obtain ⟨-, -, -, -, -, -, e0, e1⟩ := index_maps ⟨(i 0).val / 5000, hlt⟩
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e1]; omega

/-- After the run the result array is the layer of the staged arrays. -/
theorem result_array (c : Dev nD) : (dats m 0 c).arrAt 3 cfg0.N = staged m c :=
  (dats m 0 c).arrAt_eq_of_cover 3 (staged m c) (fun t _ => written_back m c t) covered

/-- The kernel's run, read: the result array at the layer of the staged arrays, the arguments unchanged. -/
theorem run : θ_run defs (onTc (τ := τ) (main (F := Ideal))) ⟨m, fun _ => 0, ρ⟩ fun r => ∀ c : Dev nD,
      r.2.mem ((c : Thread nD τ).loc main_v35) = staged m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩) (run_blocks m ρ)

end Cert.KernelIdeal.Dense

end
-- ==== Proof.Staged.lean ====
/-
  The three arrays the kernel's windows stage, as functions of the program's arguments.

  Before the launch the host computes, from the node table, the edge list, the attention vector, the weight matrix
  and the bias:
    * the edge features: for each edge the sum of the node rows of its two endpoints (an endpoint index that is
      negative is first shifted up by the number of nodes, as array indexing does);
    * the attention weights: the softmax of the attention vector (exponentials of the entries minus their maximum,
      divided by the sum of those exponentials);
    * the scaled weights: entry (k, o) is attention(k) · W(o, k), narrowed to bf16 (the identity on extended reals);
    * the bias as a 1 × 128 row.
  The terms below are the host operations' own, in program order; nothing is computed here.
-/
import proofs.«178951_j34256659153217_2_alg».proof.Proof.Gen.KernelIdeal.Frame
import Idealize.ShloMosaic.Lib.StableHlo.Run

noncomputable section

open Idealize.ShloMosaic Idealize.ShloMosaic.TcCoe Idealize.SL.Sem Idealize.ShloMosaic.StableHlo

namespace Cert.KernelIdeal.Dense

open Cert.KernelIdeal Cert.KernelIdeal.Gen

variable {F : FTy → Type} [FloatOps F]

/-- The edge features: the two endpoints' node rows, gathered and added. -/
def features (x0 : (⟨S100000x128, .f32⟩ : BufTy).Contents (Elt F)) (x1 : (⟨S2x625000, .i32⟩ : BufTy).Contents (Elt F)) :
    (⟨S625000x128, .f32⟩ : BufTy).Contents (Elt F) :=
  addf (Host.gather gather_S100000x128_S625000x1_S625000x128_1_0_n_n_0_1_1128 (x0) (broadcastInDim S625000x1 ![0] bcast_S625000_S625000x1_0 (select (cmpi .slt (shapeCast _ (extractStridedSlice S1x625000 ![0, 0] (x1) slices_S2x625000_S1x625000_0_0) shapeCasts_S1x625000_S625000) (broadcastInDim S625000 ![] bcast_S_S625000 (constantI S_ 32 0#32))) (addi (shapeCast _ (extractStridedSlice S1x625000 ![0, 0] (x1) slices_S2x625000_S1x625000_0_0) shapeCasts_S1x625000_S625000) (broadcastInDim S625000 ![] bcast_S_S625000 (constantI S_ 32 100000#32))) (shapeCast _ (extractStridedSlice S1x625000 ![0, 0] (x1) slices_S2x625000_S1x625000_0_0) shapeCasts_S1x625000_S625000))))
    (Host.gather gather_S100000x128_S625000x1_S625000x128_1_0_n_n_0_1_1128 (x0) (broadcastInDim S625000x1 ![0] bcast_S625000_S625000x1_0 (select (cmpi .slt (shapeCast _ (extractStridedSlice S1x625000 ![1, 0] (x1) slices_S2x625000_S1x625000_1_0) shapeCasts_S1x625000_S625000) (broadcastInDim S625000 ![] bcast_S_S625000 (constantI S_ 32 0#32))) (addi (shapeCast _ (extractStridedSlice S1x625000 ![1, 0] (x1) slices_S2x625000_S1x625000_1_0) shapeCasts_S1x625000_S625000) (broadcastInDim S625000 ![] bcast_S_S625000 (constantI S_ 32 100000#32))) (shapeCast _ (extractStridedSlice S1x625000 ![1, 0] (x1) slices_S2x625000_S1x625000_1_0) shapeCasts_S1x625000_S625000))))

/-- The attention weights: the softmax of the attention vector. -/
def attention (x2 : (⟨S128, .f32⟩ : BufTy).Contents (Elt F)) : (⟨S128, .f32⟩ : BufTy).Contents (Elt F) :=
  Host.divf (Host.exp (subf (x2) (broadcastInDim S128 ![0] bcast_S1_S128_0 (broadcastInDim S1 ![] bcast_S_S1 (maximumf (constant S_ .f32 0xFF800000#32) (Host.reduce FloatOps.maximumf (x2) (constant S_ .f32 0xFF800000#32) reducesTo_S128_S_d0 h_S_))))))
    (broadcastInDim S128 ![0] bcast_S1_S128_0 (broadcastInDim S1 ![] bcast_S_S1 (Host.reduceAdd (Host.exp (subf (x2) (broadcastInDim S128 ![0] bcast_S1_S128_0 (broadcastInDim S1 ![] bcast_S_S1 (maximumf (constant S_ .f32 0xFF800000#32) (Host.reduce FloatOps.maximumf (x2) (constant S_ .f32 0xFF800000#32) reducesTo_S128_S_d0 h_S_)))))) (constant S_ .f32 0x00000000#32) reducesTo_S128_S_d0 h_S_)))

/-- The scaled weights: attention down the rows times the transposed weight matrix. -/
def scaledWeights (x2 : (⟨S128, .f32⟩ : BufTy).Contents (Elt F)) (x3 : (⟨S128x128, .f32⟩ : BufTy).Contents (Elt F)) :
    (⟨S128x128, .bf16⟩ : BufTy).Contents (Elt F) :=
  truncf .bf16 (mulf (broadcastInDim S128x128 ![0, 1] bcast_S128x1_S128x128_0_1 (broadcastInDim S128x1 ![0] bcast_S128_S128x1_0 (attention (F := F) x2)))
    (transpose S128x128 [1, 0] (x3) transposes_S128x128_S128x128_1_0)) bitsLt_bf16_f32

/-- The bias as a row. -/
def biasRow (x4 : (⟨S128, .f32⟩ : BufTy).Contents (Elt F)) : (⟨S1x128, .f32⟩ : BufTy).Contents (Elt F) :=
  shapeCast _ (x4) shapeCasts_S128_S1x128

variable (m : (ℓ : Loc nD τ sig) → Buf (Elt F) ℓ)

set_option maxRecDepth 8192 in
set_option maxHeartbeats 2000000 in
theorem staged_features (c : Dev nD) :
    (V m c main_v18 : (⟨S625000x128, .f32⟩ : BufTy).Contents (Elt F))
      = features (F := F) (m ((c : Thread nD τ).loc main_arg0)) (m ((c : Thread nD τ).loc main_arg1)) := by
  dsimp only [V, hostOps0]
  after_results_simp <;> rfl

set_option maxRecDepth 8192 in
set_option maxHeartbeats 2000000 in
theorem staged_weights (c : Dev nD) :
    (V m c main_v33 : (⟨S128x128, .bf16⟩ : BufTy).Contents (Elt F))
      = scaledWeights (F := F) (m ((c : Thread nD τ).loc main_arg2)) (m ((c : Thread nD τ).loc main_arg3)) := by
  dsimp only [V, hostOps0]
  after_results_simp <;> rfl

set_option maxRecDepth 8192 in
set_option maxHeartbeats 2000000 in
theorem staged_bias (c : Dev nD) :
    (V m c main_v34 : (⟨S1x128, .f32⟩ : BufTy).Contents (Elt F))
      = biasRow (F := F) (m ((c : Thread nD τ).loc main_arg4)) := by
  dsimp only [V, hostOps0]
  after_results_simp <;> rfl

end Cert.KernelIdeal.Dense

end
-- ==== Proof.RefValue.lean ====
/-
  The reference, entry by entry.

  The reference scales the edge features by the attention weights, contracts the result with the weight matrix over the
  input features, adds the bias and clamps at zero. At edge e and output feature o:
      max( (∑ k, (X(e, k) · a(k)) · W(o, k)) + b(o), 0 ),
  X the gathered-and-added node rows, a the softmax of the attention vector.
-/
import proofs.«178951_j34256659153217_2_alg».proof.Proof.Gen.ReferenceIdeal.Read
import Idealize.ShloMosaic.Lib.ValueIdx

noncomputable section

open Idealize.ShloMosaic Idealize.ShloMosaic.ValueIdx

namespace Cert.ReferenceIdeal.Dense

open Cert.ReferenceIdeal Cert.ReferenceIdeal.Read

theorem result_apply (x0 : (⟨S100000x128, .f32⟩ : BufTy).Contents (Elt Ideal)) (x1 : (⟨S2x625000, .i32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (e : Fin 625000) (o : Fin 128) :
    val_main_v36 (F := Ideal) x0 x1 x2 x3 x4 (ix2 e o)
      = max ((∑ k : Fin 128, (val_main_v28 (F := Ideal) x0 x1 (ix2 e k) * val_main_v9 (F := Ideal) x2 (ix1 k)) * x3 (ix2 o k))
          + x4 (ix1 o)) (Ideal.ofBits .f32 0x00000000#32) := by
  have hl : ∀ k : Fin 128, lidx_main_v32 (ix2 e o) k = ix2 e k := fun k =>
    funext fun a => Fin.ext (by match a with | ⟨0, _⟩ => rfl | ⟨1, _⟩ => rfl)
  have hr : ∀ k : Fin 128, ridx_main_v32 (ix2 e o) k = ix2 o k := fun k =>
    funext fun a => Fin.ext (by match a with | ⟨0, _⟩ => rfl | ⟨1, _⟩ => rfl)
  have ha : ∀ k : Fin 128, idx_main_v29 (idx_main_v30 (ix2 e k)) = ix1 k := fun k =>
    funext fun a => Fin.ext (by match a with | ⟨0, _⟩ => rfl)
  have hb : idx_main_v33 (idx_main_v34 (ix2 e o)) = ix1 o :=
    funext fun a => Fin.ext (by match a with | ⟨0, _⟩ => rfl)
  rw [val_main_v36_apply, val_main_v35_apply, val_main_v32_apply, val_main_v34_apply, val_main_v33_apply, hb,
    val_main_call0_v0_apply, val_main_call0_cst_apply]
  simp only [hl, hr, val_main_v31_apply, val_main_v30_apply, val_main_v29_apply, ha]
  rfl

end Cert.ReferenceIdeal.Dense

end
-- ==== Proof.StagedRead.lean ====
/-
  The staged weights and bias, entry by entry.

  Entry (k, o) of the scaled weight matrix is attention(k) · W(o, k): the attention vector is repeated along the rows,
  the weight matrix is transposed, the two are multiplied entry by entry (the narrowing to bf16 is the identity on
  extended reals). Entry (0, o) of the bias row is b(o).
-/
import proofs.«178951_j34256659153217_2_alg».proof.Proof.Staged
import Idealize.ShloMosaic.Lib.ValueIdx
import Idealize.ShloMosaic.Lib.Pipeline.Value

noncomputable section

open Idealize.ShloMosaic Idealize.ShloMosaic.ValueIdx

namespace Cert.KernelIdeal.Dense

open Cert.KernelIdeal Cert.KernelIdeal.Gen

theorem scaledWeights_apply (x2 : (⟨S128, .f32⟩ : BufTy).Contents (Elt Ideal)) (x3 : (⟨S128x128, .f32⟩ : BufTy).Contents (Elt Ideal))
    (k o : Fin 128) :
    scaledWeights (F := Ideal) x2 x3 (ix2 k o) = attention (F := Ideal) x2 (ix1 k) * x3 (ix2 o k) := by
  unfold scaledWeights
  generalize attention (F := Ideal) x2 = a
  show (broadcastInDim S128x128 ![0, 1] bcast_S128x1_S128x128_0_1 (broadcastInDim S128x1 ![0] bcast_S128_S128x1_0 a)) (ix2 k o)
      * (transpose S128x128 [1, 0] x3 transposes_S128x128_S128x128_1_0) (ix2 k o) = _
  refine congrArg₂ (· * ·) ?_ ?_
  · refine (broadcastInDim_apply _ bcast_S128x1_S128x128_0_1 _ (ix2 k o) (ix2 k (0 : Fin 1)) (fun b => ?_)).trans
      (broadcastInDim_apply _ bcast_S128_S128x1_0 a (ix2 k (0 : Fin 1)) (ix1 k) (fun b => ?_))
    · match b with
      | ⟨0, _⟩ => show k.val = if (128 : Nat) = 1 then 0 else k.val; rw [if_neg (by decide)]
      | ⟨1, _⟩ => show (0 : Nat) = if (1 : Nat) = 1 then 0 else o.val; rw [if_pos rfl]
    · match b with
      | ⟨0, _⟩ => show k.val = if (128 : Nat) = 1 then 0 else k.val; rw [if_neg (by decide)]
  · exact transpose_apply [1, 0] x3 transposes_S128x128_S128x128_1_0 (ix2 k o) (ix2 o k) (fun b => by
      match b with
      | ⟨0, _⟩ => rfl
      | ⟨1, _⟩ => rfl)

theorem biasRow_apply (x4 : (⟨S128, .f32⟩ : BufTy).Contents (Elt Ideal)) (o : Fin 128) :
    biasRow (F := Ideal) x4 (ix2 (0 : Fin 1) o) = x4 (ix1 o) := by
  unfold biasRow
  exact (shapeCast_addUnit_apply ![128] x4 shapeCasts_S128_S1x128 (ix2 (0 : Fin 1) o)).trans
    (congrArg x4 (funext fun a => by match a with | ⟨0, _⟩ => rfl))

end Cert.KernelIdeal.Dense

end
-- ==== Proof.Bridge.lean ====
/-
  The two programs compute one function.

  The kernel's result is the layer of (edge features, scaled weights, bias row), whose entry (e, o) is
      max( (∑ k, X(e, k) · (a(k) · W(o, k))) + b(o), 0 );
  the reference's entry is
      max( (∑ k, (X(e, k) · a(k)) · W(o, k)) + b(o), 0 ).
  The edge features X and the attention weights a are the same host terms in both programs, and the two sums agree
  term by term because multiplication of extended reals is associative. No finiteness of the inputs is used.
-/
import proofs.«178951_j34256659153217_2_alg».proof.Proof.RefValue
import proofs.«178951_j34256659153217_2_alg».proof.Proof.StagedRead
import proofs.«178951_j34256659153217_2_alg».proof.Proof.Layer

noncomputable section

open Idealize.ShloMosaic Idealize.ShloMosaic.ValueIdx

namespace Cert.Bridge

open Cert.KernelIdeal Cert.KernelIdeal.Dense Cert.EdgeLayer

/-- The reference's edge features are the kernel's: the same gathers and the same sum. -/
theorem features_same (x0 : (⟨S100000x128, .f32⟩ : BufTy).Contents (Elt Ideal)) (x1 : (⟨S2x625000, .i32⟩ : BufTy).Contents (Elt Ideal)) :
    Cert.ReferenceIdeal.Read.val_main_v28 (F := Ideal) x0 x1 = features (F := Ideal) x0 x1 := rfl

/-- The reference's attention weights are the kernel's: the same softmax. -/
theorem attention_same (x2 : (⟨S128, .f32⟩ : BufTy).Contents (Elt Ideal)) :
    Cert.ReferenceIdeal.Read.val_main_v9 (F := Ideal) x2 = attention (F := Ideal) x2 := rfl

/-- The reference's result is the layer of the arrays the kernel stages. -/
theorem reference_is_layer (x0 : (⟨S100000x128, .f32⟩ : BufTy).Contents (Elt Ideal)) (x1 : (⟨S2x625000, .i32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) :
    Cert.ReferenceIdeal.Read.val_main_v36 (F := Ideal) x0 x1 x2 x3 x4
      = layer (features (F := Ideal) x0 x1) (scaledWeights (F := Ideal) x2 x3) (biasRow (F := Ideal) x4) := by
  funext i
  obtain ⟨e, o, rfl⟩ : ∃ (e : Fin 625000) (o : Fin 128), i = ix2 e o := ⟨i 0, i 1, eq_ix2 i⟩
  rw [Cert.ReferenceIdeal.Dense.result_apply, layer_apply, features_same, attention_same]
  unfold layerAt
  rw [biasRow_apply]
  refine congrArg (fun s => max (s + x4 (ix1 o)) (Ideal.ofBits .f32 0x00000000#32)) (Finset.sum_congr rfl fun k _ => ?_)
  rw [scaledWeights_apply]
  exact mul_assoc _ _ _

end Cert.Bridge

end
-- ==== Proof.lean ====
/-
  A graph layer over edges: for every edge the node rows of its two endpoints are gathered and added, scaled feature
  by feature by the softmax of an attention vector, sent through a linear layer with bias, and clamped at zero.

  The kernel gathers and adds on the host, folds the attention weights into the weight matrix once
  (entry (k, o) := a(k) · W(o, k)) and then, in 125 row tiles of 5000 edges, computes  max(tile · weights + bias, 0).
  The reference scales the edge features by the attention weights first and contracts with W afterwards. Entry (e, o):

      kernel:     max( (∑ k, X(e, k) · (a(k) · W(o, k))) + b(o), 0 )
      reference:  max( (∑ k, (X(e, k) · a(k)) · W(o, k)) + b(o), 0 )

  with X and a the same host terms on both sides. The two agree on the extended reals by associativity of the product,
  so the precondition is not used. The pieces: a tile's entries (TileValue), the layer as one function of the staged
  arrays (Layer), tiles to the whole array (Blocks), the staged arrays as terms of the arguments (Staged, StagedRead),
  the reference entry by entry (RefValue), and the equation between the two (Bridge). The three frames are the generated
  ones; the idealized kernel is the kernel's own text read over the extended reals, so there is nothing to preserve.
-/
import proofs.«178951_j34256659153217_2_alg».proof.Defs
import proofs.«178951_j34256659153217_2_alg».proof.Proof.Gen.Kernel
import proofs.«178951_j34256659153217_2_alg».proof.Proof.Gen.Kernel.Frame
import proofs.«178951_j34256659153217_2_alg».proof.Proof.Gen.KernelIdeal
import proofs.«178951_j34256659153217_2_alg».proof.Proof.Gen.KernelIdeal.Frame
import proofs.«178951_j34256659153217_2_alg».proof.Proof.Gen.KernelIdeal.Value
import proofs.«178951_j34256659153217_2_alg».proof.Proof.Gen.ReferenceIdeal
import proofs.«178951_j34256659153217_2_alg».proof.Proof.Gen.ReferenceIdeal.Run
import proofs.«178951_j34256659153217_2_alg».proof.Proof.Gen.ReferenceIdeal.Read
import proofs.«178951_j34256659153217_2_alg».proof.Proof.Gen.Pre_finite_inputs
import proofs.«178951_j34256659153217_2_alg».proof.Proof.Blocks
import proofs.«178951_j34256659153217_2_alg».proof.Proof.Staged
import proofs.«178951_j34256659153217_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the layer of the edge features, the scaled weights and the bias row of
    the (agreeing) arguments. -/
theorem algebraic : Cert.algebraic_KernelIdeal_ReferenceIdeal := by
  intro m ρ m' ρ' _ hagree
  refine ⟨fun c => Cert.KernelIdeal.Dense.staged m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2, Cert.Bridge.reference_is_layer]
  show _ = Cert.EdgeLayer.layer (Cert.KernelIdeal.Gen.V m c Cert.KernelIdeal.main_v18)
    (Cert.KernelIdeal.Gen.V m c Cert.KernelIdeal.main_v33) (Cert.KernelIdeal.Gen.V m c Cert.KernelIdeal.main_v34)
  rw [Cert.KernelIdeal.Dense.staged_features, Cert.KernelIdeal.Dense.staged_weights, Cert.KernelIdeal.Dense.staged_bias]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
